-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩

abbrev nBuf : Space → Nat
  | .hbm => 62
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S1x128, .f32⟩
  | .hbm, ⟨60, _⟩ => ⟨S1x128, .f32⟩
  | .hbm, ⟨61, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_c_3 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S50000x128.size a
  hwx0_11 : ∀ i : grid0.Coords, EltTy.bits .f32 = 32 ∨ (Rect.block (s := S50000x128) S5000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S5000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_2) S5000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_3) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_3) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S800000x128, .f32⟩
  | .hbm, ⟨49, _⟩ => ⟨S800000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .i1⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_3 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's whole run, with its result kept.

  The program is a chain of six segments: a stretch of host operations, the projection kernel's pipeline, three
  stretches of host operations (index normalisation, row gathers, the rectified sum, the segment sum) and the output
  kernel's pipeline.  The buffer contents at the last boundary are a fold through those segments from the launch
  memory.  Every weakly fair execution terminates with every unscoped buffer at that fold; here the fold is kept at
  the result buffer as well as at the twelve arguments, which end as launched.
-/
import proofs.«129368_j33492154974253_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Whole

end
-- ==== Proof.Layers.lean ====
/-
  The layer as whole-array functions of its arguments, at the ideal values.

  A gated graph layer on N = 50000 nodes with D = 128 features and E = 800000 edges (source, target):
    key, query, value of a node:  x·Wk + bk,  x·Wq + bq,  x·Wv + bv        (`dense`)
    the root term:                x·Wskip                                   (`proj`)
    an edge's message:            max(key[target] + query[source], 0) · value[source]
    a node's aggregate:           the sum of the messages of the edges that end in it   (`edgeSum`)
    the output:                   leaky(aggregate + root + b_conv)·Wlin + blin,
                                  leaky z = z where z ≥ 0 and slope · z elsewhere      (`head`)
  Every function is spelt with the host operations of the reference program, so that the reference's result is the
  composition `model` by unfolding, and so that the kernel's two row-blocked stages and its host stretch between
  them can each be compared with one of these functions.
-/
import proofs.«129368_j33492154974253_1_alg».proof.Proof.Gen.ReferenceIdeal
import Idealize.ShloMosaic.PureOps.Ideal

noncomputable section

namespace Cert.Layers

open Idealize.ShloMosaic Cert.ReferenceIdeal Cert.ReferenceIdeal.Gen

/-- x·W plus a one-row bias stretched over the rows. -/
def denseRow (x : FVec Ideal S50000x128 .f32) (W : FVec Ideal S128x128 .f32) (b : FVec Ideal S1x128 .f32) :
    FVec Ideal S50000x128 .f32 :=
  addf (Host.dotGeneral dot_S50000x128_S128x128_S50000x128_1_0_0_1_n_n none x W)
    (broadcastInDim S50000x128 ![0, 1] bcast_S1x128_S50000x128_0_1 b)

/-- A bias vector as a one-row matrix. -/
def asRow (b : FVec Ideal S128 .f32) : FVec Ideal S1x128 .f32 := broadcastInDim S1x128 ![1] bcast_S128_S1x128_1 b

/-- x·W + b. -/
def dense (x : FVec Ideal S50000x128 .f32) (W : FVec Ideal S128x128 .f32) (b : FVec Ideal S128 .f32) :
    FVec Ideal S50000x128 .f32 := denseRow x W (asRow b)

/-- x·W. -/
def proj (x : FVec Ideal S50000x128 .f32) (W : FVec Ideal S128x128 .f32) : FVec Ideal S50000x128 .f32 :=
  Host.dotGeneral dot_S50000x128_S128x128_S50000x128_1_0_0_1_n_n none x W

/-- The edges' sources: row 0 of the edge list. -/
def sources (ei : IVec S2x800000 32) : IVec S800000 32 :=
  shapeCast _ (extractStridedSlice S1x800000 ![0, 0] ei slices_S2x800000_S1x800000_0_0) shapeCasts_S1x800000_S800000

/-- The edges' targets: row 1 of the edge list. -/
def targets (ei : IVec S2x800000 32) : IVec S800000 32 :=
  shapeCast _ (extractStridedSlice S1x800000 ![1, 0] ei slices_S2x800000_S1x800000_1_0) shapeCasts_S1x800000_S800000

/-- Node numbers as a column of row indices, a negative number counted from the end. -/
def wrapped (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The rows of `a` named by a column of row indices. -/
def rowsAt (a : FVec Ideal S50000x128 .f32) (i : IVec S800000x1 32) : FVec Ideal S800000x128 .f32 :=
  Host.gather gather_S50000x128_S800000x1_S800000x128_1_0_n_n_0_1_1128 a i

/-- Every node's sum of the gated messages of the edges that end in it. -/
def edgeSum (k q v : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (maximumf (addf (rowsAt k (wrapped dst)) (rowsAt q (wrapped src)))
        (broadcastInDim S800000x128 ![] bcast_S_S800000x128 (constant S_ .f32 0x00000000#32)))
      (rowsAt v (wrapped src)))

/-- aggregate + root + the one-row bias. -/
def combined (agg root : FVec Ideal S50000x128 .f32) (bc : FVec Ideal S1x128 .f32) : FVec Ideal S50000x128 .f32 :=
  addf (addf agg root) (broadcastInDim S50000x128 ![0, 1] bcast_S1x128_S50000x128_0_1 bc)

/-- z where z ≥ 0, slope · z elsewhere. -/
def leaky (z : FVec Ideal S50000x128 .f32) : FVec Ideal S50000x128 .f32 :=
  select (cmpf .oge z (broadcastInDim S50000x128 ![] bcast_S_S50000x128 (constant S_ .f32 0x00000000#32))) z
    (mulf (broadcastInDim S50000x128 ![] bcast_S_S50000x128 (constant S_ .f32 0x3C23D70A#32)) z)

/-- leaky(aggregate + root + bias)·W + bias', both biases one-row matrices. -/
def head (agg root : FVec Ideal S50000x128 .f32) (bc : FVec Ideal S1x128 .f32) (W : FVec Ideal S128x128 .f32)
    (bl : FVec Ideal S1x128 .f32) : FVec Ideal S50000x128 .f32 :=
  denseRow (leaky (combined agg root bc)) W bl

/-- The whole layer. -/
def model (x : FVec Ideal S50000x128 .f32) (ei : IVec S2x800000 32)
    (Wk : FVec Ideal S128x128 .f32) (bk : FVec Ideal S128 .f32) (Wq : FVec Ideal S128x128 .f32) (bq : FVec Ideal S128 .f32)
    (Wv : FVec Ideal S128x128 .f32) (bv : FVec Ideal S128 .f32) (Wskip : FVec Ideal S128x128 .f32) (bconv : FVec Ideal S128 .f32)
    (Wlin : FVec Ideal S128x128 .f32) (blin : FVec Ideal S128 .f32) : FVec Ideal S50000x128 .f32 :=
  head (edgeSum (dense x Wk bk) (dense x Wq bq) (dense x Wv bv) (sources ei) (targets ei)) (proj x Wskip) (asRow bconv)
    Wlin (asRow blin)

end Cert.Layers

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«129368_j33492154974253_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibTwoLayerRows.lean ====
/-
  Two dense layers on a block of rows, at the ideal values.

  A perceptron  z ↦ max(z·Wa + ba, 0)·Wb + bb  (optionally followed by a last max with a constant) applied to every
  row of an [N, K] array can be computed one block of R consecutive rows at a time: the block's rows of the input
  (here a sum of two arrays) meet the whole weight matrices and one-row biases, and the matrix products run on
  operands first narrowed to another float format — the identity on the extended reals.  Each theorem says: the
  block computation read at an entry y equals the whole-array host computation read where y sits in the array.
  A block of rows is described by an embedding of its entries that shifts the row by an offset and keeps the column.
-/
import Idealize.ShloMosaic.PureOps.Ideal.Laws
import Idealize.ShloMosaic.Lib.ValueIdx
import Idealize.ShloMosaic.Lib.Pipeline.Value
import proofs.«129368_j33492154974253_1_alg».proof.Proof.LibRowBlocks

noncomputable section

namespace Cert.Lib.TwoLayerRows

open Idealize.ShloMosaic Idealize.ShloMosaic.ValueIdx Cert.Lib.PlainDot Cert.Bridge
open scoped BigOperators

variable {R N K H C : Nat}

/-- An embedding of the entries of an [R, C] block into an [N, C] array as rows o … o + R − 1, columns kept. -/
structure RowEmb {C : Nat} (e : (⟨2, ![R, C]⟩ : Shape).Idx → (⟨2, ![N, C]⟩ : Shape).Idx) (o : Nat) : Prop where
  row : ∀ j, (e j 0).val = o + (j 0).val
  col : ∀ j, (e j 1).val = (j 1).val

/-- Entry (r, k) of the left block sits in the array's row of the output entry (r, c), column k. -/
theorem RowEmb.rowIdx_eq {eK : (⟨2, ![R, K]⟩ : Shape).Idx → (⟨2, ![N, K]⟩ : Shape).Idx}
    {eC : (⟨2, ![R, C]⟩ : Shape).Idx → (⟨2, ![N, C]⟩ : Shape).Idx} {o : Nat}
    (hK : RowEmb eK o) (hC : RowEmb eC o) (y : (⟨2, ![R, C]⟩ : Shape).Idx) (k : Fin K) :
    eK (rowIdx y k) = rowIdx (eC y) k :=
  funext fun a => Fin.ext (by
    match a with
    | ⟨0, _⟩ => exact (hK.row _).trans (hC.row y).symm
    | ⟨1, _⟩ => exact hK.col _)

/-- The right factor is whole: entry (k, c) of it is read at the column of the output entry. -/
theorem RowEmb.colIdx_eq {eC : (⟨2, ![R, C]⟩ : Shape).Idx → (⟨2, ![N, C]⟩ : Shape).Idx} {o : Nat}
    (hC : RowEmb eC o) (y : (⟨2, ![R, C]⟩ : Shape).Idx) (k : Fin K) :
    (colIdx y k : (⟨2, ![K, C]⟩ : Shape).Idx) = colIdx (eC y) k :=
  funext fun a => Fin.ext (by
    match a with
    | ⟨0, _⟩ => rfl
    | ⟨1, _⟩ => exact (hC.col y).symm)

/-- The one-row bias is whole: it is read at the column of the output entry. -/
theorem RowEmb.rowZero_eq {eC : (⟨2, ![R, C]⟩ : Shape).Idx → (⟨2, ![N, C]⟩ : Shape).Idx} {o : Nat}
    (hC : RowEmb eC o) (y : (⟨2, ![R, C]⟩ : Shape).Idx) :
    (rowZero y : (⟨2, ![1, C]⟩ : Shape).Idx) = rowZero (eC y) :=
  funext fun a => Fin.ext (by
    match a with
    | ⟨0, _⟩ => rfl
    | ⟨1, _⟩ => exact (hC.col y).symm)

/-- THE FIRST LAYER of a row block: the two input blocks added, narrowed, multiplied by the narrowed weights into
    zeros, the bias row stretched over the rows, maximum with a constant — against the host's whole arrays. -/
theorem first_layer_block {ψ : FTy} (hψ : ψ.bits < FTy.f32.bits)
    (d : DotDims ⟨2, ![R, K]⟩ ⟨2, ![K, H]⟩ ⟨2, ![R, H]⟩) (hd : d = DotDims.plain R K H)
    (D : DotDims ⟨2, ![N, K]⟩ ⟨2, ![K, H]⟩ ⟨2, ![N, H]⟩) (hD : D = DotDims.plain N K H)
    (prec prec' : Option ContractPrecision)
    (X A : FVec Ideal ⟨2, ![N, K]⟩ .f32) (Wa : FVec Ideal ⟨2, ![K, H]⟩ .f32) (Ba : FVec Ideal ⟨2, ![1, H]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx) (o : Nat)
    (hK : RowEmb eK o) (hH : RowEmb eH o)
    (hx0 : ∀ j, x0 j = X (eK j)) (hx1 : ∀ j, x1 j = A (eK j))
    (hb : (⟨2, ![1, H]⟩ : Shape).Broadcasts ⟨2, ![R, H]⟩)
    (hB : (⟨2, ![1, H]⟩ : Shape).BroadcastsInDim ⟨2, ![N, H]⟩ ![0, 1])
    (hZ : (⟨0, ![]⟩ : Shape).BroadcastsInDim ⟨2, ![N, H]⟩ ![]) (z : BitVec 32)
    (y : (⟨2, ![R, H]⟩ : Shape).Idx) :
    maximumf (addf (matmul d prec (truncf ψ (addf x0 x1) hψ) (truncf ψ Wa hψ) (constant ⟨2, ![R, H]⟩ .f32 0x00000000#32))
          (broadcastTo ⟨2, ![R, H]⟩ Ba hb))
        (broadcast ⟨2, ![R, H]⟩ (Scalar.ofBits (F := Ideal) .f32 z)) y
      = maximumf (addf (Host.dotGeneral D prec' (addf X A) Wa) (broadcastInDim ⟨2, ![N, H]⟩ ![0, 1] hB Ba))
        (broadcastInDim ⟨2, ![N, H]⟩ ![] hZ (constant (F := Ideal) ⟨0, ![]⟩ .f32 z)) (eH y) :=
  embed_block ψ ψ d hd D hD prec prec' (addf X A) Wa Ba (truncf ψ (addf x0 x1) hψ) (truncf ψ Wa hψ) Ba
    eK id id eH
    (fun j => by rw [truncf_apply, addf_apply, addf_apply, hx0, hx1])
    (fun j => truncf_apply Wa hψ j) (fun _ => rfl)
    (fun y k => hK.rowIdx_eq hH y k) (fun y k => hH.colIdx_eq y k) (fun y => hH.rowZero_eq y)
    hb hB hZ z y

/-- BOTH LAYERS of a row block, ending in a maximum with the constant. -/
theorem two_layers_max_block {ψ : FTy} (hψ : ψ.bits < FTy.f32.bits)
    (dA : DotDims ⟨2, ![R, K]⟩ ⟨2, ![K, H]⟩ ⟨2, ![R, H]⟩) (hdA : dA = DotDims.plain R K H)
    (DA : DotDims ⟨2, ![N, K]⟩ ⟨2, ![K, H]⟩ ⟨2, ![N, H]⟩) (hDA : DA = DotDims.plain N K H)
    (dB : DotDims ⟨2, ![R, H]⟩ ⟨2, ![H, C]⟩ ⟨2, ![R, C]⟩) (hdB : dB = DotDims.plain R H C)
    (DB : DotDims ⟨2, ![N, H]⟩ ⟨2, ![H, C]⟩ ⟨2, ![N, C]⟩) (hDB : DB = DotDims.plain N H C)
    (prec prec' : Option ContractPrecision)
    (X A : FVec Ideal ⟨2, ![N, K]⟩ .f32) (Wa : FVec Ideal ⟨2, ![K, H]⟩ .f32) (Ba : FVec Ideal ⟨2, ![1, H]⟩ .f32)
    (Wb : FVec Ideal ⟨2, ![H, C]⟩ .f32) (Bb : FVec Ideal ⟨2, ![1, C]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx)
    (eC : (⟨2, ![R, C]⟩ : Shape).Idx → (⟨2, ![N, C]⟩ : Shape).Idx) (o : Nat)
    (hK : RowEmb eK o) (hH : RowEmb eH o) (hC : RowEmb eC o)
    (hx0 : ∀ j, x0 j = X (eK j)) (hx1 : ∀ j, x1 j = A (eK j))
    (hbA : (⟨2, ![1, H]⟩ : Shape).Broadcasts ⟨2, ![R, H]⟩)
    (hBA : (⟨2, ![1, H]⟩ : Shape).BroadcastsInDim ⟨2, ![N, H]⟩ ![0, 1])
    (hZA : (⟨0, ![]⟩ : Shape).BroadcastsInDim ⟨2, ![N, H]⟩ ![])
    (hbB : (⟨2, ![1, C]⟩ : Shape).Broadcasts ⟨2, ![R, C]⟩)
    (hBB : (⟨2, ![1, C]⟩ : Shape).BroadcastsInDim ⟨2, ![N, C]⟩ ![0, 1])
    (hZB : (⟨0, ![]⟩ : Shape).BroadcastsInDim ⟨2, ![N, C]⟩ ![]) (z : BitVec 32)
    (y : (⟨2, ![R, C]⟩ : Shape).Idx) :
    maximumf (addf (matmul dB prec
            (truncf ψ (maximumf (addf (matmul dA prec (truncf ψ (addf x0 x1) hψ) (truncf ψ Wa hψ) (constant ⟨2, ![R, H]⟩ .f32 0x00000000#32))
                (broadcastTo ⟨2, ![R, H]⟩ Ba hbA)) (broadcast ⟨2, ![R, H]⟩ (Scalar.ofBits (F := Ideal) .f32 z))) hψ)
            (truncf ψ Wb hψ) (constant ⟨2, ![R, C]⟩ .f32 0x00000000#32))
          (broadcastTo ⟨2, ![R, C]⟩ Bb hbB))
        (broadcast ⟨2, ![R, C]⟩ (Scalar.ofBits (F := Ideal) .f32 z)) y
      = maximumf (addf (Host.dotGeneral DB prec'
            (maximumf (addf (Host.dotGeneral DA prec' (addf X A) Wa) (broadcastInDim ⟨2, ![N, H]⟩ ![0, 1] hBA Ba))
              (broadcastInDim ⟨2, ![N, H]⟩ ![] hZA (constant (F := Ideal) ⟨0, ![]⟩ .f32 z)))
            Wb) (broadcastInDim ⟨2, ![N, C]⟩ ![0, 1] hBB Bb))
        (broadcastInDim ⟨2, ![N, C]⟩ ![] hZB (constant (F := Ideal) ⟨0, ![]⟩ .f32 z)) (eC y) :=
  embed_block ψ ψ dB hdB DB hDB prec prec' _ Wb Bb _ (truncf ψ Wb hψ) Bb
    eH id id eC
    (fun j => (truncf_apply _ hψ j).trans
      (first_layer_block hψ dA hdA DA hDA prec prec' X A Wa Ba x0 x1 eK eH o hK hH hx0 hx1 hbA hBA hZA z j))
    (fun j => truncf_apply Wb hψ j) (fun _ => rfl)
    (fun y k => hH.rowIdx_eq hC y k) (fun y k => hC.colIdx_eq y k) (fun y => hC.rowZero_eq y)
    hbB hBB hZB z y

/-- BOTH LAYERS of a row block, the second one without a final maximum. -/
theorem two_layers_block {ψ : FTy} (hψ : ψ.bits < FTy.f32.bits)
    (dA : DotDims ⟨2, ![R, K]⟩ ⟨2, ![K, H]⟩ ⟨2, ![R, H]⟩) (hdA : dA = DotDims.plain R K H)
    (DA : DotDims ⟨2, ![N, K]⟩ ⟨2, ![K, H]⟩ ⟨2, ![N, H]⟩) (hDA : DA = DotDims.plain N K H)
    (dB : DotDims ⟨2, ![R, H]⟩ ⟨2, ![H, C]⟩ ⟨2, ![R, C]⟩) (hdB : dB = DotDims.plain R H C)
    (DB : DotDims ⟨2, ![N, H]⟩ ⟨2, ![H, C]⟩ ⟨2, ![N, C]⟩) (hDB : DB = DotDims.plain N H C)
    (prec prec' : Option ContractPrecision)
    (X A : FVec Ideal ⟨2, ![N, K]⟩ .f32) (Wa : FVec Ideal ⟨2, ![K, H]⟩ .f32) (Ba : FVec Ideal ⟨2, ![1, H]⟩ .f32)
    (Wb : FVec Ideal ⟨2, ![H, C]⟩ .f32) (Bb : FVec Ideal ⟨2, ![1, C]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx)
    (eC : (⟨2, ![R, C]⟩ : Shape).Idx → (⟨2, ![N, C]⟩ : Shape).Idx) (o : Nat)
    (hK : RowEmb eK o) (hH : RowEmb eH o) (hC : RowEmb eC o)
    (hx0 : ∀ j, x0 j = X (eK j)) (hx1 : ∀ j, x1 j = A (eK j))
    (hbA : (⟨2, ![1, H]⟩ : Shape).Broadcasts ⟨2, ![R, H]⟩)
    (hBA : (⟨2, ![1, H]⟩ : Shape).BroadcastsInDim ⟨2, ![N, H]⟩ ![0, 1])
    (hZA : (⟨0, ![]⟩ : Shape).BroadcastsInDim ⟨2, ![N, H]⟩ ![])
    (hbB : (⟨2, ![1, C]⟩ : Shape).Broadcasts ⟨2, ![R, C]⟩)
    (hBB : (⟨2, ![1, C]⟩ : Shape).BroadcastsInDim ⟨2, ![N, C]⟩ ![0, 1]) (z : BitVec 32)
    (y : (⟨2, ![R, C]⟩ : Shape).Idx) :
    addf (matmul dB prec
          (truncf ψ (maximumf (addf (matmul dA prec (truncf ψ (addf x0 x1) hψ) (truncf ψ Wa hψ) (constant ⟨2, ![R, H]⟩ .f32 0x00000000#32))
              (broadcastTo ⟨2, ![R, H]⟩ Ba hbA)) (broadcast ⟨2, ![R, H]⟩ (Scalar.ofBits (F := Ideal) .f32 z))) hψ)
          (truncf ψ Wb hψ) (constant ⟨2, ![R, C]⟩ .f32 0x00000000#32))
        (broadcastTo ⟨2, ![R, C]⟩ Bb hbB) y
      = addf (Host.dotGeneral DB prec'
            (maximumf (addf (Host.dotGeneral DA prec' (addf X A) Wa) (broadcastInDim ⟨2, ![N, H]⟩ ![0, 1] hBA Ba))
              (broadcastInDim ⟨2, ![N, H]⟩ ![] hZA (constant (F := Ideal) ⟨0, ![]⟩ .f32 z)))
            Wb) (broadcastInDim ⟨2, ![N, C]⟩ ![0, 1] hBB Bb) (eC y) :=
  output_block ψ ψ dB hdB DB hDB prec prec' _ Wb Bb _ (truncf ψ Wb hψ) Bb
    eH id id eC
    (fun j => (truncf_apply _ hψ j).trans
      (first_layer_block hψ dA hdA DA hDA prec prec' X A Wa Ba x0 x1 eK eH o hK hH hx0 hx1 hbA hBA hZA z j))
    (fun j => truncf_apply Wb hψ j) (fun _ => rfl)
    (fun y k => hH.rowIdx_eq hC y k) (fun y k => hC.colIdx_eq y k) (fun y => hC.rowZero_eq y)
    hbB hBB y

end Cert.Lib.TwoLayerRows

end
-- ==== Proof.LibLeakyRows.lean ====
/-
  A leaky-rectified dense head on a block of rows, at the ideal values.

  The head  (a, h) ↦ leaky(a + h + b)·W + b'  with  leaky z = z where z ≥ t and s·z elsewhere  is applied to every row
  of two [N, K] arrays.  Computed one block of R consecutive rows at a time — the two blocks added, the one-row bias
  stretched over the rows, the comparison and the product with the slope taken entry by entry, the result narrowed
  to another float format (the identity on the extended reals), multiplied by the narrowed weights into zeros, the
  second one-row bias stretched over the rows — it is, at an entry y of the block, the whole-array host computation
  read where y sits in the array.  No finiteness is used: the two sides are the same sums of the same products.
-/
import Idealize.ShloMosaic.PureOps.Ideal.Laws
import Idealize.ShloMosaic.Lib.ValueIdx
import Idealize.ShloMosaic.Lib.Pipeline.Value
import proofs.«129368_j33492154974253_1_alg».proof.Proof.LibTwoLayerRows

noncomputable section

namespace Cert.Lib.LeakyRows

open Idealize.ShloMosaic Idealize.ShloMosaic.ValueIdx Cert.Lib.PlainDot Cert.Bridge Cert.Lib.TwoLayerRows
open scoped BigOperators

variable {R N K C : Nat}

/-- The pre-activation of a row block: the two blocks added and the bias row stretched over the rows, against the
    host's sum of the whole arrays. -/
theorem preact_block (A H : FVec Ideal ⟨2, ![N, K]⟩ .f32) (Bc : FVec Ideal ⟨2, ![1, K]⟩ .f32)
    (x0 x1 : FVec Ideal ⟨2, ![R, K]⟩ .f32)
    (eK : (⟨2, ![R, K]⟩ : Shape).Idx → (⟨2, ![N, K]⟩ : Shape).Idx) (o : Nat) (hK : RowEmb eK o)
    (hx0 : ∀ j, x0 j = A (eK j)) (hx1 : ∀ j, x1 j = H (eK j))
    (hb : (⟨2, ![1, K]⟩ : Shape).Broadcasts ⟨2, ![R, K]⟩)
    (hB : (⟨2, ![1, K]⟩ : Shape).BroadcastsInDim ⟨2, ![N, K]⟩ ![0, 1])
    (j : (⟨2, ![R, K]⟩ : Shape).Idx) :
    addf (addf x0 x1) (broadcastTo ⟨2, ![R, K]⟩ Bc hb) j
      = addf (addf A H) (broadcastInDim ⟨2, ![N, K]⟩ ![0, 1] hB Bc) (eK j) := by
  rw [addf_apply, addf_apply, addf_apply, addf_apply, stretchRow_apply, hostStretchRow_apply, hx0, hx1,
    hK.rowZero_eq j]

/-- The activation of a row block, entry by entry: z where z ≥ t, s·z elsewhere — against the host's select over the
    whole array. -/
theorem leaky_block (Z : FVec Ideal ⟨2, ![N, K]⟩ .f32) (z : FVec Ideal ⟨2, ![R, K]⟩ .f32)
    (eK : (⟨2, ![R, K]⟩ : Shape).Idx → (⟨2, ![N, K]⟩ : Shape).Idx) (hz : ∀ j, z j = Z (eK j))
    (hZ : (⟨0, ![]⟩ : Shape).BroadcastsInDim ⟨2, ![N, K]⟩ ![]) (t s : BitVec 32)
    (j : (⟨2, ![R, K]⟩ : Shape).Idx) :
    select (cmpf .oge z (broadcast ⟨2, ![R, K]⟩ (Scalar.ofBits (F := Ideal) .f32 t))) z
        (mulf (broadcast ⟨2, ![R, K]⟩ (Scalar.ofBits (F := Ideal) .f32 s)) z) j
      = select (cmpf .oge Z (broadcastInDim ⟨2, ![N, K]⟩ ![] hZ (constant (F := Ideal) ⟨0, ![]⟩ .f32 t))) Z
        (mulf (broadcastInDim ⟨2, ![N, K]⟩ ![] hZ (constant (F := Ideal) ⟨0, ![]⟩ .f32 s)) Z) (eK j) := by
  rw [select_apply, select_apply, cmpf_apply, cmpf_apply, mulf_apply, mulf_apply, broadcast_apply, broadcast_apply,
    hostSplat_apply, hostSplat_apply, hz]
  rfl

/-- THE HEAD of a row block: leaky(a + h + b) narrowed, times the narrowed weights into zeros, plus the second bias
    row — against the host's whole arrays. -/
theorem leaky_head_block {ψ : FTy} (hψ : ψ.bits < FTy.f32.bits)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (A H : FVec Ideal ⟨2, ![N, K]⟩ .f32) (Bc : FVec Ideal ⟨2, ![1, K]⟩ .f32)
    (W : FVec Ideal ⟨2, ![K, C]⟩ .f32) (Bl : FVec Ideal ⟨2, ![1, C]⟩ .f32)
    (x0 x1 : FVec Ideal ⟨2, ![R, K]⟩ .f32)
    (eK : (⟨2, ![R, K]⟩ : Shape).Idx → (⟨2, ![N, K]⟩ : Shape).Idx)
    (eC : (⟨2, ![R, C]⟩ : Shape).Idx → (⟨2, ![N, C]⟩ : Shape).Idx) (o : Nat)
    (hK : RowEmb eK o) (hC : RowEmb eC o)
    (hx0 : ∀ j, x0 j = A (eK j)) (hx1 : ∀ j, x1 j = H (eK j))
    (hbK : (⟨2, ![1, K]⟩ : Shape).Broadcasts ⟨2, ![R, K]⟩)
    (hBK : (⟨2, ![1, K]⟩ : Shape).BroadcastsInDim ⟨2, ![N, K]⟩ ![0, 1])
    (hZK : (⟨0, ![]⟩ : Shape).BroadcastsInDim ⟨2, ![N, K]⟩ ![])
    (hbC : (⟨2, ![1, C]⟩ : Shape).Broadcasts ⟨2, ![R, C]⟩)
    (hBC : (⟨2, ![1, C]⟩ : Shape).BroadcastsInDim ⟨2, ![N, C]⟩ ![0, 1]) (t s : BitVec 32)
    (y : (⟨2, ![R, C]⟩ : Shape).Idx) :
    addf (matmul d prec
          (truncf ψ (select (cmpf .oge (addf (addf x0 x1) (broadcastTo ⟨2, ![R, K]⟩ Bc hbK))
                (broadcast ⟨2, ![R, K]⟩ (Scalar.ofBits (F := Ideal) .f32 t)))
              (addf (addf x0 x1) (broadcastTo ⟨2, ![R, K]⟩ Bc hbK))
              (mulf (broadcast ⟨2, ![R, K]⟩ (Scalar.ofBits (F := Ideal) .f32 s))
                (addf (addf x0 x1) (broadcastTo ⟨2, ![R, K]⟩ Bc hbK)))) hψ)
          (truncf ψ W hψ) (constant ⟨2, ![R, C]⟩ .f32 0x00000000#32))
        (broadcastTo ⟨2, ![R, C]⟩ Bl hbC) y
      = addf (Host.dotGeneral D prec'
            (select (cmpf .oge (addf (addf A H) (broadcastInDim ⟨2, ![N, K]⟩ ![0, 1] hBK Bc))
                (broadcastInDim ⟨2, ![N, K]⟩ ![] hZK (constant (F := Ideal) ⟨0, ![]⟩ .f32 t)))
              (addf (addf A H) (broadcastInDim ⟨2, ![N, K]⟩ ![0, 1] hBK Bc))
              (mulf (broadcastInDim ⟨2, ![N, K]⟩ ![] hZK (constant (F := Ideal) ⟨0, ![]⟩ .f32 s))
                (addf (addf A H) (broadcastInDim ⟨2, ![N, K]⟩ ![0, 1] hBK Bc))))
            W) (broadcastInDim ⟨2, ![N, C]⟩ ![0, 1] hBC Bl) (eC y) :=
  output_block ψ ψ d hd D hD prec prec' _ W Bl _ (truncf ψ W hψ) Bl
    eK id id eC
    (fun j => (truncf_apply _ hψ j).trans
      (leaky_block _ _ eK (fun j => preact_block A H Bc x0 x1 eK o hK hx0 hx1 hbK hBK j) hZK t s j))
    (fun j => truncf_apply W hψ j) (fun _ => rfl)
    (fun y k => hK.rowIdx_eq hC y k) (fun y k => hC.colIdx_eq y k) (fun y => hC.rowZero_eq y)
    hbC hBC y

end Cert.Lib.LeakyRows

end
-- ==== Proof.Blocks.lean ====
/-
  The two kernels' bodies on a block of rows, read at an entry.

  The projection kernel computes, on a block of 5000 consecutive rows of x, the block times a whole 128 x 128 weight
  matrix (both narrowed to another float format first — the identity on the extended reals) into a zero accumulator,
  three times with a one-row bias stretched over the rows and once without.  The output kernel computes on a block of
  rows of the aggregate and of the root term the leaky-rectified head.  Each lemma says that the body's value at an
  entry y of the block is the matching whole-array function of Layers.lean read where y sits in the array, for blocks
  given as restrictions of whole arrays along an embedding that shifts the row by an offset and keeps the column.
-/
import proofs.«129368_j33492154974253_1_alg».proof.Proof.Gen.KernelIdeal.Skeleton
import proofs.«129368_j33492154974253_1_alg».proof.Proof.Layers
import proofs.«129368_j33492154974253_1_alg».proof.Proof.LibLeakyRows
import Idealize.ShloMosaic.Lib.Pipeline.Value

noncomputable section

namespace Cert.KernelIdeal.Blocks

open Cert.KernelIdeal Cert.KernelIdeal.Gen
open Idealize.ShloMosaic Idealize.ShloMosaic.ValueIdx
open Cert.Lib.PlainDot Cert.Bridge Cert.Lib.TwoLayerRows Cert.Lib.LeakyRows

/-- A projection with bias on a block of rows: block·W + the bias row, at y, is `denseRow` where y sits. -/
theorem proj_bias_at (X : FVec Ideal S50000x128 .f32) (W : FVec Ideal S128x128 .f32) (B : FVec Ideal S1x128 .f32)
    (x0 : Vec Ideal S5000x128 .f32) (x1 : Vec Ideal S128x128 .f32) (x2 : Vec Ideal S1x128 .f32)
    (e0 eo : S5000x128.Idx → S50000x128.Idx) (o : Nat) (h0 : RowEmb e0 o) (ho : RowEmb eo o)
    (hx0 : ∀ j, x0 j = X (e0 j)) (hx1 : ∀ j, x1 j = W j) (hx2 : ∀ j, x2 j = B j) (y : S5000x128.Idx) :
    k0_pay2 x0 x1 x2 y = Cert.Layers.denseRow X W B (eo y) := by
  unfold k0_pay2 k0_pay1 Cert.Layers.denseRow
  dsimp only
  rw [shapeCast_self]
  exact output_block .bf16 .bf16 _ rfl _ rfl none none X W B _ _ x2 e0 id id eo
    (fun j => (truncf_apply x0 _ j).trans (hx0 j)) (fun j => (truncf_apply x1 _ j).trans (hx1 j)) hx2
    (fun y k => h0.rowIdx_eq ho y k) (fun y k => ho.colIdx_eq y k) (fun y => ho.rowZero_eq y) _ _ y

/-- The second projection with bias: the same body on its own weight and bias operands. -/
theorem proj_bias_at' (X : FVec Ideal S50000x128 .f32) (W : FVec Ideal S128x128 .f32) (B : FVec Ideal S1x128 .f32)
    (x0 : Vec Ideal S5000x128 .f32) (x1 : Vec Ideal S128x128 .f32) (x2 : Vec Ideal S1x128 .f32)
    (e0 eo : S5000x128.Idx → S50000x128.Idx) (o : Nat) (h0 : RowEmb e0 o) (ho : RowEmb eo o)
    (hx0 : ∀ j, x0 j = X (e0 j)) (hx1 : ∀ j, x1 j = W j) (hx2 : ∀ j, x2 j = B j) (y : S5000x128.Idx) :
    k0_pay3 x0 x1 x2 y = Cert.Layers.denseRow X W B (eo y) := by
  unfold k0_pay3 k0_pay1 Cert.Layers.denseRow
  dsimp only
  rw [shapeCast_self]
  exact output_block .bf16 .bf16 _ rfl _ rfl none none X W B _ _ x2 e0 id id eo
    (fun j => (truncf_apply x0 _ j).trans (hx0 j)) (fun j => (truncf_apply x1 _ j).trans (hx1 j)) hx2
    (fun y k => h0.rowIdx_eq ho y k) (fun y k => ho.colIdx_eq y k) (fun y => ho.rowZero_eq y) _ _ y

/-- The third projection with bias. -/
theorem proj_bias_at'' (X : FVec Ideal S50000x128 .f32) (W : FVec Ideal S128x128 .f32) (B : FVec Ideal S1x128 .f32)
    (x0 : Vec Ideal S5000x128 .f32) (x1 : Vec Ideal S128x128 .f32) (x2 : Vec Ideal S1x128 .f32)
    (e0 eo : S5000x128.Idx → S50000x128.Idx) (o : Nat) (h0 : RowEmb e0 o) (ho : RowEmb eo o)
    (hx0 : ∀ j, x0 j = X (e0 j)) (hx1 : ∀ j, x1 j = W j) (hx2 : ∀ j, x2 j = B j) (y : S5000x128.Idx) :
    k0_pay4 x0 x1 x2 y = Cert.Layers.denseRow X W B (eo y) := by
  unfold k0_pay4 k0_pay1 Cert.Layers.denseRow
  dsimp only
  rw [shapeCast_self]
  exact output_block .bf16 .bf16 _ rfl _ rfl none none X W B _ _ x2 e0 id id eo
    (fun j => (truncf_apply x0 _ j).trans (hx0 j)) (fun j => (truncf_apply x1 _ j).trans (hx1 j)) hx2
    (fun y k => h0.rowIdx_eq ho y k) (fun y k => ho.colIdx_eq y k) (fun y => ho.rowZero_eq y) _ _ y

/-- The projection without bias (the root term) on a block of rows. -/
theorem proj_at (X : FVec Ideal S50000x128 .f32) (W : FVec Ideal S128x128 .f32)
    (x0 : Vec Ideal S5000x128 .f32) (x1 : Vec Ideal S128x128 .f32)
    (e0 eo : S5000x128.Idx → S50000x128.Idx) (o : Nat) (h0 : RowEmb e0 o) (ho : RowEmb eo o)
    (hx0 : ∀ j, x0 j = X (e0 j)) (hx1 : ∀ j, x1 j = W j) (y : S5000x128.Idx) :
    k0_pay5 x0 x1 y = Cert.Layers.proj X W (eo y) := by
  unfold k0_pay5 k0_pay1 Cert.Layers.proj
  dsimp only
  exact dot_block (φ₁ := .bf16) (φ₂ := .bf16) _ rfl _ rfl none none X W _ _ e0 id eo
    (fun j => (truncf_apply x0 _ j).trans (hx0 j)) (fun j => (truncf_apply x1 _ j).trans (hx1 j))
    (fun y k => h0.rowIdx_eq ho y k) (fun y k => ho.colIdx_eq y k) y

/-- The output kernel's body on a block of rows: the leaky-rectified head, at y, is `head` where y sits. -/
theorem head_at (A H : FVec Ideal S50000x128 .f32) (Bc : FVec Ideal S1x128 .f32) (W : FVec Ideal S128x128 .f32)
    (Bl : FVec Ideal S1x128 .f32)
    (x0 x1 : Vec Ideal S5000x128 .f32) (x2 : Vec Ideal S1x128 .f32) (x3 : Vec Ideal S128x128 .f32) (x4 : Vec Ideal S1x128 .f32)
    (e0 eo : S5000x128.Idx → S50000x128.Idx) (o : Nat) (h0 : RowEmb e0 o) (ho : RowEmb eo o)
    (hx0 : ∀ j, x0 j = A (e0 j)) (hx1 : ∀ j, x1 j = H (e0 j)) (hx2 : x2 = Bc) (hx3 : x3 = W) (hx4 : x4 = Bl)
    (y : S5000x128.Idx) :
    k1_pay1 x0 x1 x2 x3 x4 y = Cert.Layers.head A H Bc W Bl (eo y) := by
  subst hx2 hx3 hx4
  unfold k1_pay1 Cert.Layers.head Cert.Layers.denseRow Cert.Layers.leaky Cert.Layers.combined
  dsimp only
  simp only [shapeCast_self]
  exact leaky_head_block _ _ rfl _ rfl none none A H x2 x3 x4 x0 x1 e0 eo o h0 ho hx0 hx1 _ _ _ _ _ _ _ y

end Cert.KernelIdeal.Blocks

end
-- ==== Proof.ProjStage.lean ====
/-
  The projection kernel's four output arrays, as whole-array functions of what the kernel finds.

  The grid has ten points; at point t every row-blocked window (the input x and the four outputs) is on rows
  5000·t … 5000·t + 4999 and all 128 columns, and the weight and bias windows are their whole arrays.  So what point t
  writes back to an output is rows 5000·t … of ONE whole-array function of the arrays the kernel reads: x·W plus the
  bias row for the keys, queries and values, x·W for the root term.  The ten blocks tile the 50000 rows, so after the
  last point each output array is that function.  Everything is stated at an arbitrary entry contents V.
-/
import proofs.«129368_j33492154974253_1_alg».proof.Proof.Gen.KernelIdeal.Frame
import proofs.«129368_j33492154974253_1_alg».proof.Proof.Blocks
import Idealize.ShloMosaic.Lib.Pipeline.Value

set_option maxRecDepth 16384

noncomputable section

namespace Cert.KernelIdeal.ProjStage

open Cert.KernelIdeal Cert.KernelIdeal.Gen
open Idealize.ShloMosaic Idealize.ShloMosaic.TcCoe Idealize.SL.Sem
open Idealize.ShloMosaic.Pipeline (Dat Cfg Window)
open Cert.Lib.TwoLayerRows

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the grid: a row-blocked window is at block (t, 0), a whole window at block (0, 0). -/
theorem idx_facts : ∀ t : Fin cfg0.N,
    (win0_0.index t (0 : Fin 2) = t.val ∧ win0_0.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-! ## Where a block's entries sit -/

/-- An entry (r, k) of window 0's block at point t sits at row 5000·t + r, column k of its array. -/
theorem rows0 (t : Fin cfg0.N) :
    RowEmb (R := 5000) (N := 50000) (C := 128) (((cfg0.win 0).blk t).view.emb) (t.val * 5000) := by
  have e := (idx_facts t).1
  refine ⟨fun j => ?_, fun j => ?_⟩
  · show win0_0.index t (0 : Fin 2) * 5000 + 1 * (j 0).val = t.val * 5000 + (j 0).val
    rw [e.1]; omega
  · show win0_0.index t (1 : Fin 2) * 128 + 1 * (j 1).val = (j 1).val
    rw [e.2]; omega

/-- An entry (r, k) of window 8's block at point t sits at row 5000·t + r, column k of its array. -/
theorem rows8 (t : Fin cfg0.N) :
    RowEmb (R := 5000) (N := 50000) (C := 128) (((cfg0.win 8).blk t).view.emb) (t.val * 5000) := by
  have e := (idx_facts t).2.1
  refine ⟨fun j => ?_, fun j => ?_⟩
  · show win0_8.index t (0 : Fin 2) * 5000 + 1 * (j 0).val = t.val * 5000 + (j 0).val
    rw [e.1]; omega
  · show win0_8.index t (1 : Fin 2) * 128 + 1 * (j 1).val = (j 1).val
    rw [e.2]; omega

/-- An entry (r, k) of window 9's block at point t sits at row 5000·t + r, column k of its array. -/
theorem rows9 (t : Fin cfg0.N) :
    RowEmb (R := 5000) (N := 50000) (C := 128) (((cfg0.win 9).blk t).view.emb) (t.val * 5000) := by
  have e := (idx_facts t).2.2.1
  refine ⟨fun j => ?_, fun j => ?_⟩
  · show win0_9.index t (0 : Fin 2) * 5000 + 1 * (j 0).val = t.val * 5000 + (j 0).val
    rw [e.1]; omega
  · show win0_9.index t (1 : Fin 2) * 128 + 1 * (j 1).val = (j 1).val
    rw [e.2]; omega

/-- An entry (r, k) of window 10's block at point t sits at row 5000·t + r, column k of its array. -/
theorem rows10 (t : Fin cfg0.N) :
    RowEmb (R := 5000) (N := 50000) (C := 128) (((cfg0.win 10).blk t).view.emb) (t.val * 5000) := by
  have e := (idx_facts t).2.2.2.1
  refine ⟨fun j => ?_, fun j => ?_⟩
  · show win0_10.index t (0 : Fin 2) * 5000 + 1 * (j 0).val = t.val * 5000 + (j 0).val
    rw [e.1]; omega
  · show win0_10.index t (1 : Fin 2) * 128 + 1 * (j 1).val = (j 1).val
    rw [e.2]; omega

/-- An entry (r, k) of window 11's block at point t sits at row 5000·t + r, column k of its array. -/
theorem rows11 (t : Fin cfg0.N) :
    RowEmb (R := 5000) (N := 50000) (C := 128) (((cfg0.win 11).blk t).view.emb) (t.val * 5000) := by
  have e := (idx_facts t).2.2.2.2.1
  refine ⟨fun j => ?_, fun j => ?_⟩
  · show win0_11.index t (0 : Fin 2) * 5000 + 1 * (j 0).val = t.val * 5000 + (j 0).val
    rw [e.1]; omega
  · show win0_11.index t (1 : Fin 2) * 128 + 1 * (j 1).val = (j 1).val
    rw [e.2]; omega

/-! ## The whole windows' blocks are their arrays -/

theorem whole1 (c : Dev nD) (t : Fin cfg0.N) (j : S128x128.Idx) : iblk0 V c 1 t j = V c main_arg2 j := by
  have e := (idx_facts t).2.2.2.2.2.1
  show V c main_arg2 (((cfg0.win 1).blk t).view.emb j) = V c main_arg2 j
  refine congrArg (V c main_arg2) (funext fun a => Fin.ext ?_)
  match a with
  | ⟨0, _⟩ => show win0_1.index t (0 : Fin 2) * 128 + 1 * (j 0).val = (j 0).val; rw [e.1]; omega
  | ⟨1, _⟩ => show win0_1.index t (1 : Fin 2) * 128 + 1 * (j 1).val = (j 1).val; rw [e.2]; omega

theorem whole2 (c : Dev nD) (t : Fin cfg0.N) (j : S1x128.Idx) : iblk0 V c 2 t j = V c main_v4 j := by
  have e := (idx_facts t).2.2.2.2.2.2.1
  show V c main_v4 (((cfg0.win 2).blk t).view.emb j) = V c main_v4 j
  refine congrArg (V c main_v4) (funext fun a => Fin.ext ?_)
  match a with
  | ⟨0, _⟩ => show win0_2.index t (0 : Fin 2) * 1 + 1 * (j 0).val = (j 0).val; rw [e.1]; omega
  | ⟨1, _⟩ => show win0_2.index t (1 : Fin 2) * 128 + 1 * (j 1).val = (j 1).val; rw [e.2]; omega

theorem whole3 (c : Dev nD) (t : Fin cfg0.N) (j : S128x128.Idx) : iblk0 V c 3 t j = V c main_arg4 j := by
  have e := (idx_facts t).2.2.2.2.2.2.2.1
  show V c main_arg4 (((cfg0.win 3).blk t).view.emb j) = V c main_arg4 j
  refine congrArg (V c main_arg4) (funext fun a => Fin.ext ?_)
  match a with
  | ⟨0, _⟩ => show win0_3.index t (0 : Fin 2) * 128 + 1 * (j 0).val = (j 0).val; rw [e.1]; omega
  | ⟨1, _⟩ => show win0_3.index t (1 : Fin 2) * 128 + 1 * (j 1).val = (j 1).val; rw [e.2]; omega

theorem whole4 (c : Dev nD) (t : Fin cfg0.N) (j : S1x128.Idx) : iblk0 V c 4 t j = V c main_v5 j := by
  have e := (idx_facts t).2.2.2.2.2.2.2.2.1
  show V c main_v5 (((cfg0.win 4).blk t).view.emb j) = V c main_v5 j
  refine congrArg (V c main_v5) (funext fun a => Fin.ext ?_)
  match a with
  | ⟨0, _⟩ => show win0_4.index t (0 : Fin 2) * 1 + 1 * (j 0).val = (j 0).val; rw [e.1]; omega
  | ⟨1, _⟩ => show win0_4.index t (1 : Fin 2) * 128 + 1 * (j 1).val = (j 1).val; rw [e.2]; omega

theorem whole5 (c : Dev nD) (t : Fin cfg0.N) (j : S128x128.Idx) : iblk0 V c 5 t j = V c main_arg6 j := by
  have e := (idx_facts t).2.2.2.2.2.2.2.2.2.1
  show V c main_arg6 (((cfg0.win 5).blk t).view.emb j) = V c main_arg6 j
  refine congrArg (V c main_arg6) (funext fun a => Fin.ext ?_)
  match a with
  | ⟨0, _⟩ => show win0_5.index t (0 : Fin 2) * 128 + 1 * (j 0).val = (j 0).val; rw [e.1]; omega
  | ⟨1, _⟩ => show win0_5.index t (1 : Fin 2) * 128 + 1 * (j 1).val = (j 1).val; rw [e.2]; omega

theorem whole6 (c : Dev nD) (t : Fin cfg0.N) (j : S1x128.Idx) : iblk0 V c 6 t j = V c main_v6 j := by
  have e := (idx_facts t).2.2.2.2.2.2.2.2.2.2.1
  show V c main_v6 (((cfg0.win 6).blk t).view.emb j) = V c main_v6 j
  refine congrArg (V c main_v6) (funext fun a => Fin.ext ?_)
  match a with
  | ⟨0, _⟩ => show win0_6.index t (0 : Fin 2) * 1 + 1 * (j 0).val = (j 0).val; rw [e.1]; omega
  | ⟨1, _⟩ => show win0_6.index t (1 : Fin 2) * 128 + 1 * (j 1).val = (j 1).val; rw [e.2]; omega

theorem whole7 (c : Dev nD) (t : Fin cfg0.N) (j : S128x128.Idx) : iblk0 V c 7 t j = V c main_arg8 j := by
  have e := (idx_facts t).2.2.2.2.2.2.2.2.2.2.2
  show V c main_arg8 (((cfg0.win 7).blk t).view.emb j) = V c main_arg8 j
  refine congrArg (V c main_arg8) (funext fun a => Fin.ext ?_)
  match a with
  | ⟨0, _⟩ => show win0_7.index t (0 : Fin 2) * 128 + 1 * (j 0).val = (j 0).val; rw [e.1]; omega
  | ⟨1, _⟩ => show win0_7.index t (1 : Fin 2) * 128 + 1 * (j 1).val = (j 1).val; rw [e.2]; omega

/-! ## What a point writes back, the cover, and the arrays after the last point -/

/-- What point t writes back to the keys' array is block t of x·W + the bias row. -/
theorem flushed8 (c : Dev nD) (t : Fin cfg0.N) :
    (dat0 V c).flushed 8 t = ((cfg0.win 8).blk t).view.read (Elt Ideal) (Cert.Layers.denseRow (V c main_arg0) (V c main_arg2) (V c main_v4)) := by
  show (cfg0.win 8).cut (grid0.coords t) ((dat0 V c).after 8 t) = _
  rw [after0_8]
  unfold out0_8
  rw [View.canon_unit_zero zeros2]
  simp only [View.ld_unit_zero (S := S5000x128) zeros2, View.ld_unit_zero (S := S128x128) zeros2, View.ld_unit_zero (S := S1x128) zeros2]
  funext j
  show k0_pay2 (iblk0 V c 0 t) (iblk0 V c 1 t) (iblk0 V c 2 t) j = (Cert.Layers.denseRow (V c main_arg0) (V c main_arg2) (V c main_v4)) (((cfg0.win 8).blk t).view.emb j)
  exact Cert.KernelIdeal.Blocks.proj_bias_at (V c main_arg0) (V c main_arg2) (V c main_v4) (iblk0 V c 0 t) (iblk0 V c 1 t) (iblk0 V c 2 t)
    (((cfg0.win 0).blk t).view.emb) (((cfg0.win 8).blk t).view.emb) (t.val * 5000) (rows0 t) (rows8 t)
    (fun _ => rfl) (whole1 V c t) (whole2 V c t) j

/-- An entry of the keys' array is in point t's block iff each coordinate is in the block's range. -/
theorem mem_blk8 (t : Fin cfg0.N) (i : S50000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v7_0).slice (win0_8.rect t)).set ↔ _
  rw [View.set_slice_whole, Rect.mem_set_unit]
  exact Iff.rfl

/-- Row r of the keys' array is in the block of point r / 5000. -/
theorem cover8 (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  have e := (idx_facts t).2.1
  refine ⟨t, flush0_8 t, ?_⟩
  rw [mem_blk8]
  intro a
  match a with
  | ⟨0, _⟩ =>
    show win0_8.index t (0 : Fin 2) * 5000 ≤ (i 0).val ∧ (i 0).val < win0_8.index t (0 : Fin 2) * 5000 + 5000
    rw [e.1, ht]; omega
  | ⟨1, _⟩ =>
    show win0_8.index t (1 : Fin 2) * 128 ≤ (i 1).val ∧ (i 1).val < win0_8.index t (1 : Fin 2) * 128 + 128
    rw [e.2]; omega

/-- THE KEYS' ARRAY after the kernel: x·W + the bias row of the arrays the kernel finds. -/
theorem final8 (c : Dev nD) : (dat0 V c).arrAt 8 cfg0.N = Cert.Layers.denseRow (V c main_arg0) (V c main_arg2) (V c main_v4) :=
  (dat0 V c).arrAt_eq_of_cover 8 _ (fun t _ => flushed8 V c t) cover8

/-- What point t writes back to the queries' array is block t of x·W + the bias row. -/
theorem flushed9 (c : Dev nD) (t : Fin cfg0.N) :
    (dat0 V c).flushed 9 t = ((cfg0.win 9).blk t).view.read (Elt Ideal) (Cert.Layers.denseRow (V c main_arg0) (V c main_arg4) (V c main_v5)) := by
  show (cfg0.win 9).cut (grid0.coords t) ((dat0 V c).after 9 t) = _
  rw [after0_9]
  unfold out0_9
  rw [View.canon_unit_zero zeros2]
  simp only [View.ld_unit_zero (S := S5000x128) zeros2, View.ld_unit_zero (S := S128x128) zeros2, View.ld_unit_zero (S := S1x128) zeros2]
  funext j
  show k0_pay3 (iblk0 V c 0 t) (iblk0 V c 3 t) (iblk0 V c 4 t) j = (Cert.Layers.denseRow (V c main_arg0) (V c main_arg4) (V c main_v5)) (((cfg0.win 9).blk t).view.emb j)
  exact Cert.KernelIdeal.Blocks.proj_bias_at' (V c main_arg0) (V c main_arg4) (V c main_v5) (iblk0 V c 0 t) (iblk0 V c 3 t) (iblk0 V c 4 t)
    (((cfg0.win 0).blk t).view.emb) (((cfg0.win 9).blk t).view.emb) (t.val * 5000) (rows0 t) (rows9 t)
    (fun _ => rfl) (whole3 V c t) (whole4 V c t) j

/-- An entry of the queries' array is in point t's block iff each coordinate is in the block's range. -/
theorem mem_blk9 (t : Fin cfg0.N) (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v7_1).slice (win0_9.rect t)).set ↔ _
  rw [View.set_slice_whole, Rect.mem_set_unit]
  exact Iff.rfl

/-- Row r of the queries' array is in the block of point r / 5000. -/
theorem cover9 (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  have e := (idx_facts t).2.2.1
  refine ⟨t, flush0_9 t, ?_⟩
  rw [mem_blk9]
  intro a
  match a with
  | ⟨0, _⟩ =>
    show win0_9.index t (0 : Fin 2) * 5000 ≤ (i 0).val ∧ (i 0).val < win0_9.index t (0 : Fin 2) * 5000 + 5000
    rw [e.1, ht]; omega
  | ⟨1, _⟩ =>
    show win0_9.index t (1 : Fin 2) * 128 ≤ (i 1).val ∧ (i 1).val < win0_9.index t (1 : Fin 2) * 128 + 128
    rw [e.2]; omega

/-- THE QUERIES' ARRAY after the kernel: x·W + the bias row of the arrays the kernel finds. -/
theorem final9 (c : Dev nD) : (dat0 V c).arrAt 9 cfg0.N = Cert.Layers.denseRow (V c main_arg0) (V c main_arg4) (V c main_v5) :=
  (dat0 V c).arrAt_eq_of_cover 9 _ (fun t _ => flushed9 V c t) cover9

/-- What point t writes back to the values' array is block t of x·W + the bias row. -/
theorem flushed10 (c : Dev nD) (t : Fin cfg0.N) :
    (dat0 V c).flushed 10 t = ((cfg0.win 10).blk t).view.read (Elt Ideal) (Cert.Layers.denseRow (V c main_arg0) (V c main_arg6) (V c main_v6)) := by
  show (cfg0.win 10).cut (grid0.coords t) ((dat0 V c).after 10 t) = _
  rw [after0_10]
  unfold out0_10
  rw [View.canon_unit_zero zeros2]
  simp only [View.ld_unit_zero (S := S5000x128) zeros2, View.ld_unit_zero (S := S128x128) zeros2, View.ld_unit_zero (S := S1x128) zeros2]
  funext j
  show k0_pay4 (iblk0 V c 0 t) (iblk0 V c 5 t) (iblk0 V c 6 t) j = (Cert.Layers.denseRow (V c main_arg0) (V c main_arg6) (V c main_v6)) (((cfg0.win 10).blk t).view.emb j)
  exact Cert.KernelIdeal.Blocks.proj_bias_at'' (V c main_arg0) (V c main_arg6) (V c main_v6) (iblk0 V c 0 t) (iblk0 V c 5 t) (iblk0 V c 6 t)
    (((cfg0.win 0).blk t).view.emb) (((cfg0.win 10).blk t).view.emb) (t.val * 5000) (rows0 t) (rows10 t)
    (fun _ => rfl) (whole5 V c t) (whole6 V c t) j

/-- An entry of the values' array is in point t's block iff each coordinate is in the block's range. -/
theorem mem_blk10 (t : Fin cfg0.N) (i : S50000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v7_2).slice (win0_10.rect t)).set ↔ _
  rw [View.set_slice_whole, Rect.mem_set_unit]
  exact Iff.rfl

/-- Row r of the values' array is in the block of point r / 5000. -/
theorem cover10 (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  have e := (idx_facts t).2.2.2.1
  refine ⟨t, flush0_10 t, ?_⟩
  rw [mem_blk10]
  intro a
  match a with
  | ⟨0, _⟩ =>
    show win0_10.index t (0 : Fin 2) * 5000 ≤ (i 0).val ∧ (i 0).val < win0_10.index t (0 : Fin 2) * 5000 + 5000
    rw [e.1, ht]; omega
  | ⟨1, _⟩ =>
    show win0_10.index t (1 : Fin 2) * 128 ≤ (i 1).val ∧ (i 1).val < win0_10.index t (1 : Fin 2) * 128 + 128
    rw [e.2]; omega

/-- THE VALUES' ARRAY after the kernel: x·W + the bias row of the arrays the kernel finds. -/
theorem final10 (c : Dev nD) : (dat0 V c).arrAt 10 cfg0.N = Cert.Layers.denseRow (V c main_arg0) (V c main_arg6) (V c main_v6) :=
  (dat0 V c).arrAt_eq_of_cover 10 _ (fun t _ => flushed10 V c t) cover10

/-- What point t writes back to the root terms' array is block t of x·W. -/
theorem flushed11 (c : Dev nD) (t : Fin cfg0.N) :
    (dat0 V c).flushed 11 t = ((cfg0.win 11).blk t).view.read (Elt Ideal) (Cert.Layers.proj (V c main_arg0) (V c main_arg8)) := by
  show (cfg0.win 11).cut (grid0.coords t) ((dat0 V c).after 11 t) = _
  rw [after0_11]
  unfold out0_11
  rw [View.canon_unit_zero zeros2]
  simp only [View.ld_unit_zero (S := S5000x128) zeros2, View.ld_unit_zero (S := S128x128) zeros2]
  funext j
  show k0_pay5 (iblk0 V c 0 t) (iblk0 V c 7 t) j = (Cert.Layers.proj (V c main_arg0) (V c main_arg8)) (((cfg0.win 11).blk t).view.emb j)
  exact Cert.KernelIdeal.Blocks.proj_at (V c main_arg0) (V c main_arg8) (iblk0 V c 0 t) (iblk0 V c 7 t)
    (((cfg0.win 0).blk t).view.emb) (((cfg0.win 11).blk t).view.emb) (t.val * 5000) (rows0 t) (rows11 t)
    (fun _ => rfl) (whole7 V c t) j

/-- An entry of the root terms' array is in point t's block iff each coordinate is in the block's range. -/
theorem mem_blk11 (t : Fin cfg0.N) (i : S50000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v7_3).slice (win0_11.rect t)).set ↔ _
  rw [View.set_slice_whole, Rect.mem_set_unit]
  exact Iff.rfl

/-- Row r of the root terms' array is in the block of point r / 5000. -/
theorem cover11 (i : S50000x128.Idx) :
    ∃ t : Fin cfg0.N, (cfg0.win 11).flush t = true ∧ i ∈ ((cfg0.win 11).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  have e := (idx_facts t).2.2.2.2.1
  refine ⟨t, flush0_11 t, ?_⟩
  rw [mem_blk11]
  intro a
  match a with
  | ⟨0, _⟩ =>
    show win0_11.index t (0 : Fin 2) * 5000 ≤ (i 0).val ∧ (i 0).val < win0_11.index t (0 : Fin 2) * 5000 + 5000
    rw [e.1, ht]; omega
  | ⟨1, _⟩ =>
    show win0_11.index t (1 : Fin 2) * 128 ≤ (i 1).val ∧ (i 1).val < win0_11.index t (1 : Fin 2) * 128 + 128
    rw [e.2]; omega

/-- THE ROOT TERMS' ARRAY after the kernel: x·W of the arrays the kernel finds. -/
theorem final11 (c : Dev nD) : (dat0 V c).arrAt 11 cfg0.N = Cert.Layers.proj (V c main_arg0) (V c main_arg8) :=
  (dat0 V c).arrAt_eq_of_cover 11 _ (fun t _ => flushed11 V c t) cover11

end Cert.KernelIdeal.ProjStage

end
-- ==== Proof.HeadStage.lean ====
/-
  The output kernel's result array, as a whole-array function of what the kernel finds.

  The grid has ten points; at point t the aggregate's, the root term's and the result's windows are on rows
  5000·t … 5000·t + 4999 and all 128 columns, and the two bias rows and the weight matrix are whole.  What point t writes
  back is rows 5000·t … of the leaky-rectified head of the whole arrays, the ten blocks tile the 50000 rows, and so after
  the last point the result array is that head.  Stated at an arbitrary entry contents V.
-/
import proofs.«129368_j33492154974253_1_alg».proof.Proof.Gen.KernelIdeal.Frame
import proofs.«129368_j33492154974253_1_alg».proof.Proof.Blocks
import Idealize.ShloMosaic.Lib.Pipeline.Value

set_option maxRecDepth 16384

noncomputable section

namespace Cert.KernelIdeal.HeadStage

open Cert.KernelIdeal Cert.KernelIdeal.Gen
open Idealize.ShloMosaic Idealize.ShloMosaic.TcCoe Idealize.SL.Sem
open Idealize.ShloMosaic.Pipeline (Dat Cfg Window)
open Cert.Lib.TwoLayerRows

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the grid: a row-blocked window is at block (t, 0), a whole window at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_5.index t (0 : Fin 2) = t.val ∧ win1_5.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N, _)

/-! ## Where a block's entries sit -/

/-- An entry (r, k) of window 0's block at point t sits at row 5000·t + r, column k of its array. -/
theorem rows0 (t : Fin cfg1.N) :
    RowEmb (R := 5000) (N := 50000) (C := 128) (((cfg1.win 0).blk t).view.emb) (t.val * 5000) := by
  have e := (idx_facts t).1
  refine ⟨fun j => ?_, fun j => ?_⟩
  · show win1_0.index t (0 : Fin 2) * 5000 + 1 * (j 0).val = t.val * 5000 + (j 0).val
    rw [e.1]; omega
  · show win1_0.index t (1 : Fin 2) * 128 + 1 * (j 1).val = (j 1).val
    rw [e.2]; omega

/-- An entry (r, k) of window 1's block at point t sits at row 5000·t + r, column k of its array. -/
theorem rows1 (t : Fin cfg1.N) :
    RowEmb (R := 5000) (N := 50000) (C := 128) (((cfg1.win 1).blk t).view.emb) (t.val * 5000) := by
  have e := (idx_facts t).2.1
  refine ⟨fun j => ?_, fun j => ?_⟩
  · show win1_1.index t (0 : Fin 2) * 5000 + 1 * (j 0).val = t.val * 5000 + (j 0).val
    rw [e.1]; omega
  · show win1_1.index t (1 : Fin 2) * 128 + 1 * (j 1).val = (j 1).val
    rw [e.2]; omega

/-- An entry (r, k) of window 5's block at point t sits at row 5000·t + r, column k of its array. -/
theorem rows5 (t : Fin cfg1.N) :
    RowEmb (R := 5000) (N := 50000) (C := 128) (((cfg1.win 5).blk t).view.emb) (t.val * 5000) := by
  have e := (idx_facts t).2.2.1
  refine ⟨fun j => ?_, fun j => ?_⟩
  · show win1_5.index t (0 : Fin 2) * 5000 + 1 * (j 0).val = t.val * 5000 + (j 0).val
    rw [e.1]; omega
  · show win1_5.index t (1 : Fin 2) * 128 + 1 * (j 1).val = (j 1).val
    rw [e.2]; omega

/-- The aggregate's and the root term's blocks at a point are on the same rows. -/
theorem same_rows (t : Fin cfg1.N) (j : S5000x128.Idx) :
    (((cfg1.win 1).blk t).view.emb j : S50000x128.Idx) = ((cfg1.win 0).blk t).view.emb j :=
  funext fun a => Fin.ext (by
    match a with
    | ⟨0, _⟩ => exact ((rows1 t).row j).trans ((rows0 t).row j).symm
    | ⟨1, _⟩ => exact ((rows1 t).col j).trans ((rows0 t).col j).symm)

/-! ## The whole windows' blocks are their arrays -/

theorem whole2 (c : Dev nD) (t : Fin cfg1.N) (j : S1x128.Idx) : iblk1 V c 2 t j = V c main_v35 j := by
  have e := (idx_facts t).2.2.2.1
  show V c main_v35 (((cfg1.win 2).blk t).view.emb j) = V c main_v35 j
  refine congrArg (V c main_v35) (funext fun a => Fin.ext ?_)
  match a with
  | ⟨0, _⟩ => show win1_2.index t (0 : Fin 2) * 1 + 1 * (j 0).val = (j 0).val; rw [e.1]; omega
  | ⟨1, _⟩ => show win1_2.index t (1 : Fin 2) * 128 + 1 * (j 1).val = (j 1).val; rw [e.2]; omega

theorem whole3 (c : Dev nD) (t : Fin cfg1.N) (j : S128x128.Idx) : iblk1 V c 3 t j = V c main_arg10 j := by
  have e := (idx_facts t).2.2.2.2.1
  show V c main_arg10 (((cfg1.win 3).blk t).view.emb j) = V c main_arg10 j
  refine congrArg (V c main_arg10) (funext fun a => Fin.ext ?_)
  match a with
  | ⟨0, _⟩ => show win1_3.index t (0 : Fin 2) * 128 + 1 * (j 0).val = (j 0).val; rw [e.1]; omega
  | ⟨1, _⟩ => show win1_3.index t (1 : Fin 2) * 128 + 1 * (j 1).val = (j 1).val; rw [e.2]; omega

theorem whole4 (c : Dev nD) (t : Fin cfg1.N) (j : S1x128.Idx) : iblk1 V c 4 t j = V c main_v36 j := by
  have e := (idx_facts t).2.2.2.2.2
  show V c main_v36 (((cfg1.win 4).blk t).view.emb j) = V c main_v36 j
  refine congrArg (V c main_v36) (funext fun a => Fin.ext ?_)
  match a with
  | ⟨0, _⟩ => show win1_4.index t (0 : Fin 2) * 1 + 1 * (j 0).val = (j 0).val; rw [e.1]; omega
  | ⟨1, _⟩ => show win1_4.index t (1 : Fin 2) * 128 + 1 * (j 1).val = (j 1).val; rw [e.2]; omega

/-! ## What a point writes back, the cover, and the array after the last point -/

/-- What point t writes back to the result array is block t of the head of the whole arrays. -/
theorem flushed5 (c : Dev nD) (t : Fin cfg1.N) :
    (dat1 V c).flushed 5 t = ((cfg1.win 5).blk t).view.read (Elt Ideal) (Cert.Layers.head (V c main_v34) (V c main_v7_3) (V c main_v35) (V c main_arg10) (V c main_v36)) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S128x128) zeros2, View.ld_unit_zero (S := S1x128) zeros2]
  funext j
  show k1_pay1 (iblk1 V c 0 t) (iblk1 V c 1 t) (iblk1 V c 2 t) (iblk1 V c 3 t) (iblk1 V c 4 t) j
    = (Cert.Layers.head (V c main_v34) (V c main_v7_3) (V c main_v35) (V c main_arg10) (V c main_v36)) (((cfg1.win 5).blk t).view.emb j)
  exact Cert.KernelIdeal.Blocks.head_at (V c main_v34) (V c main_v7_3) (V c main_v35) (V c main_arg10) (V c main_v36)
    (iblk1 V c 0 t) (iblk1 V c 1 t) (iblk1 V c 2 t) (iblk1 V c 3 t) (iblk1 V c 4 t)
    (((cfg1.win 0).blk t).view.emb) (((cfg1.win 5).blk t).view.emb) (t.val * 5000) (rows0 t) (rows5 t)
    (fun _ => rfl) (fun j => congrArg (V c main_v7_3) (same_rows t j))
    (funext (whole2 V c t)) (funext (whole3 V c t)) (funext (whole4 V c t)) j

/-- An entry of the result array is in point t's block iff each coordinate is in the block's range. -/
theorem mem_blk5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- Row r of the result array is in the block of point r / 5000. -/
theorem cover5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  have e := (idx_facts t).2.2.1
  refine ⟨t, flush1_5 t, ?_⟩
  rw [mem_blk5]
  intro a
  match a with
  | ⟨0, _⟩ =>
    show win1_5.index t (0 : Fin 2) * 5000 ≤ (i 0).val ∧ (i 0).val < win1_5.index t (0 : Fin 2) * 5000 + 5000
    rw [e.1, ht]; omega
  | ⟨1, _⟩ =>
    show win1_5.index t (1 : Fin 2) * 128 ≤ (i 1).val ∧ (i 1).val < win1_5.index t (1 : Fin 2) * 128 + 128
    rw [e.2]; omega

/-- THE RESULT ARRAY after the kernel: the head of the arrays the kernel finds. -/
theorem final5 (c : Dev nD) : (dat1 V c).arrAt 5 cfg1.N = Cert.Layers.head (V c main_v34) (V c main_v7_3) (V c main_v35) (V c main_arg10) (V c main_v36) :=
  (dat1 V c).arrAt_eq_of_cover 5 _ (fun t _ => flushed5 V c t) cover5

end Cert.KernelIdeal.HeadStage

end
-- ==== Proof.Between.lean ====
/-
  The buffer contents at the boundaries between the program's segments, read at the buffers the kernels use.

  Before the projection kernel the host only re-lays data: rows 0 and 1 of the edge list become the vectors of sources
  and targets, and the three bias vectors become one-row matrices; every argument is still as launched.  Between the
  two kernels the host wraps negative node numbers, gathers the targets' keys and the sources' queries and values,
  rectifies the sum of keys and queries, multiplies by the values and adds each edge's message into its target's row
  — `Layers.edgeSum` of the projection kernel's outputs —, and re-lays the last two bias vectors; the root term, the
  last weight matrix and the arguments pass through.
-/
import proofs.«129368_j33492154974253_1_alg».proof.Proof.Gen.KernelIdeal.Frame
import proofs.«129368_j33492154974253_1_alg».proof.Proof.Layers
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## When the projection kernel is entered -/

theorem entry_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem entry_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem entry_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem entry_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem entry_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem entry_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem entry_arg10 (c : Dev nD) : W1 m ρ c (Proc.devRef .tc main_arg10) = m ((c : Thread nD τ).loc main_arg10) := by
  show StableHlo.after hostOps0 (W0 m ρ c) (Proc.devRef .tc main_arg10) = _
  after_results_simp <;> rfl
theorem entry_arg11 (c : Dev nD) : W1 m ρ c (Proc.devRef .tc main_arg11) = m ((c : Thread nD τ).loc main_arg11) := by
  show StableHlo.after hostOps0 (W0 m ρ c) (Proc.devRef .tc main_arg11) = _
  after_results_simp <;> rfl
/-- A bias vector re-laid as a one-row matrix. -/
theorem entry_v4 (c : Dev nD) :
    W1 m ρ c (Proc.devRef .tc main_v4) = shapeCast S1x128 (m ((c : Thread nD τ).loc main_arg3)) shapeCasts_S128_S1x128 := by
  show StableHlo.after hostOps0 (W0 m ρ c) (Proc.devRef .tc main_v4) = _
  after_results_simp <;> rfl
/-- A bias vector re-laid as a one-row matrix. -/
theorem entry_v5 (c : Dev nD) :
    W1 m ρ c (Proc.devRef .tc main_v5) = shapeCast S1x128 (m ((c : Thread nD τ).loc main_arg5)) shapeCasts_S128_S1x128 := by
  show StableHlo.after hostOps0 (W0 m ρ c) (Proc.devRef .tc main_v5) = _
  after_results_simp <;> rfl
/-- A bias vector re-laid as a one-row matrix. -/
theorem entry_v6 (c : Dev nD) :
    W1 m ρ c (Proc.devRef .tc main_v6) = shapeCast S1x128 (m ((c : Thread nD τ).loc main_arg7)) shapeCasts_S128_S1x128 := by
  show StableHlo.after hostOps0 (W0 m ρ c) (Proc.devRef .tc main_v6) = _
  after_results_simp <;> rfl
/-- The edges' sources. -/
theorem entry_v1 (c : Dev nD) :
    W1 m ρ c (Proc.devRef .tc main_v1) = Cert.Layers.sources (m ((c : Thread nD τ).loc main_arg1)) := by
  show StableHlo.after hostOps0 (W0 m ρ c) (Proc.devRef .tc main_v1) = _
  after_results_simp <;> rfl
/-- The edges' targets. -/
theorem entry_v3 (c : Dev nD) :
    W1 m ρ c (Proc.devRef .tc main_v3) = Cert.Layers.targets (m ((c : Thread nD τ).loc main_arg1)) := by
  show StableHlo.after hostOps0 (W0 m ρ c) (Proc.devRef .tc main_v3) = _
  after_results_simp <;> rfl

/-! ## When the output kernel is entered, from the contents the projection kernel leaves -/

/-- The aggregate: every node's sum of gated messages, from the projection kernel's keys, queries and values. -/
theorem mid_v34 (c : Dev nD) :
    W5 m ρ c (Proc.devRef .tc main_v34)
      = Cert.Layers.edgeSum (W2 m ρ c (Proc.devRef .tc main_v7_0)) (W2 m ρ c (Proc.devRef .tc main_v7_1))
          (W2 m ρ c (Proc.devRef .tc main_v7_2)) (W2 m ρ c (Proc.devRef .tc main_v1)) (W2 m ρ c (Proc.devRef .tc main_v3)) := by
  show StableHlo.after hostOps1_2 (StableHlo.after hostOps1_1 (StableHlo.after hostOps1 (W2 m ρ c))) (Proc.devRef .tc main_v34) = _
  generalize W2 m ρ c = U
  after_results_simp <;> rfl
/-- The root term passes through. -/
theorem mid_v7_3 (c : Dev nD) : W5 m ρ c (Proc.devRef .tc main_v7_3) = W2 m ρ c (Proc.devRef .tc main_v7_3) := by
  show StableHlo.after hostOps1_2 (StableHlo.after hostOps1_1 (StableHlo.after hostOps1 (W2 m ρ c))) (Proc.devRef .tc main_v7_3) = _
  generalize W2 m ρ c = U
  after_results_simp <;> rfl
/-- The last weight matrix passes through. -/
theorem mid_arg10 (c : Dev nD) : W5 m ρ c (Proc.devRef .tc main_arg10) = W2 m ρ c (Proc.devRef .tc main_arg10) := by
  show StableHlo.after hostOps1_2 (StableHlo.after hostOps1_1 (StableHlo.after hostOps1 (W2 m ρ c))) (Proc.devRef .tc main_arg10) = _
  generalize W2 m ρ c = U
  after_results_simp <;> rfl
/-- A bias vector re-laid as a one-row matrix. -/
theorem mid_v35 (c : Dev nD) :
    W5 m ρ c (Proc.devRef .tc main_v35) = shapeCast S1x128 (W2 m ρ c (Proc.devRef .tc main_arg9)) shapeCasts_S128_S1x128 := by
  show StableHlo.after hostOps1_2 (StableHlo.after hostOps1_1 (StableHlo.after hostOps1 (W2 m ρ c))) (Proc.devRef .tc main_v35) = _
  generalize W2 m ρ c = U
  after_results_simp <;> rfl
/-- A bias vector re-laid as a one-row matrix. -/
theorem mid_v36 (c : Dev nD) :
    W5 m ρ c (Proc.devRef .tc main_v36) = shapeCast S1x128 (W2 m ρ c (Proc.devRef .tc main_arg11)) shapeCasts_S128_S1x128 := by
  show StableHlo.after hostOps1_2 (StableHlo.after hostOps1_1 (StableHlo.after hostOps1 (W2 m ρ c))) (Proc.devRef .tc main_v36) = _
  generalize W2 m ρ c = U
  after_results_simp <;> rfl

end Cert.KernelIdeal.Between

end
-- ==== Proof.KernelValue.lean ====
/-
  The idealized kernel's result is the layer `Layers.model` of its arguments.

  The result buffer's contents at the last boundary are the output kernel's result array: the leaky-rectified head of
  the aggregate, the root term, the two bias rows and the last weight matrix as the output kernel finds them.  The
  aggregate is the edge sum of the keys, queries and values the projection kernel leaves, over the sources and targets
  read off the edge list; those and the root term are x·W (+ b) of the launch contents; a bias vector reshaped to one
  row is the vector with a unit axis put in front.  Put together this is the whole layer of the twelve arguments.
-/
import proofs.«129368_j33492154974253_1_alg».proof.Proof.Gen.KernelIdeal.Frame
import proofs.«129368_j33492154974253_1_alg».proof.Proof.Layers
import proofs.«129368_j33492154974253_1_alg».proof.Proof.ProjStage
import proofs.«129368_j33492154974253_1_alg».proof.Proof.HeadStage
import proofs.«129368_j33492154974253_1_alg».proof.Proof.Between

set_option maxRecDepth 16384

noncomputable section

namespace Cert.KernelIdeal.Whole

open Cert.KernelIdeal Cert.KernelIdeal.Gen
open Idealize.ShloMosaic Idealize.ShloMosaic.TcCoe Idealize.SL.Sem
open Cert.KernelIdeal.Between

variable (m : (ℓ : Loc nD τ sig) → Buf (Elt Ideal) ℓ) (ρ : Dev nD → PrngReg)

/-- A bias vector reshaped to one row is the vector with a unit axis in front. -/
theorem row_eq (b : FVec Ideal S128 .f32) : shapeCast S1x128 b shapeCasts_S128_S1x128 = Cert.Layers.asRow b :=
  Cert.Bridge.reshapeRow_eq b _ _

/-- A buffer no window of the projection kernel is on keeps its contents through that kernel. -/
theorem through0 (c : Dev nD) (b : Ref sig .tc) (hb : ∀ w, Pipeline.arrRef spec0 w ≠ b) :
    W2 m ρ c (Proc.devRef .tc b) = W1 m ρ c (Proc.devRef .tc b) := W2_of_ne m ρ c b hb

/-! ## What the projection kernel leaves -/

theorem keys (c : Dev nD) :
    W2 m ρ c (Proc.devRef .tc main_v7_0) = Cert.Layers.dense (m ((c : Thread nD τ).loc main_arg0)) (m ((c : Thread nD τ).loc main_arg2)) (m ((c : Thread nD τ).loc main_arg3)) :=
  calc W2 m ρ c (Proc.devRef .tc main_v7_0)
    _ = (dat0 (V1 m ρ) c).arrAt 8 cfg0.N := W2_arr m ρ c 8
    _ = Cert.Layers.denseRow (W1 m ρ c (Proc.devRef .tc main_arg0)) (W1 m ρ c (Proc.devRef .tc main_arg2))
          (W1 m ρ c (Proc.devRef .tc main_v4)) := Cert.KernelIdeal.ProjStage.final8 (V1 m ρ) c
    _ = Cert.Layers.denseRow (m ((c : Thread nD τ).loc main_arg0)) (m ((c : Thread nD τ).loc main_arg2))
          (shapeCast S1x128 (m ((c : Thread nD τ).loc main_arg3)) shapeCasts_S128_S1x128) := by
      rw [entry_arg0, entry_arg2, entry_v4]
    _ = Cert.Layers.dense (m ((c : Thread nD τ).loc main_arg0)) (m ((c : Thread nD τ).loc main_arg2)) (m ((c : Thread nD τ).loc main_arg3)) :=
      congrArg (Cert.Layers.denseRow _ _) (row_eq _)

theorem queries (c : Dev nD) :
    W2 m ρ c (Proc.devRef .tc main_v7_1) = Cert.Layers.dense (m ((c : Thread nD τ).loc main_arg0)) (m ((c : Thread nD τ).loc main_arg4)) (m ((c : Thread nD τ).loc main_arg5)) :=
  calc W2 m ρ c (Proc.devRef .tc main_v7_1)
    _ = (dat0 (V1 m ρ) c).arrAt 9 cfg0.N := W2_arr m ρ c 9
    _ = Cert.Layers.denseRow (W1 m ρ c (Proc.devRef .tc main_arg0)) (W1 m ρ c (Proc.devRef .tc main_arg4))
          (W1 m ρ c (Proc.devRef .tc main_v5)) := Cert.KernelIdeal.ProjStage.final9 (V1 m ρ) c
    _ = Cert.Layers.denseRow (m ((c : Thread nD τ).loc main_arg0)) (m ((c : Thread nD τ).loc main_arg4))
          (shapeCast S1x128 (m ((c : Thread nD τ).loc main_arg5)) shapeCasts_S128_S1x128) := by
      rw [entry_arg0, entry_arg4, entry_v5]
    _ = Cert.Layers.dense (m ((c : Thread nD τ).loc main_arg0)) (m ((c : Thread nD τ).loc main_arg4)) (m ((c : Thread nD τ).loc main_arg5)) :=
      congrArg (Cert.Layers.denseRow _ _) (row_eq _)

theorem values (c : Dev nD) :
    W2 m ρ c (Proc.devRef .tc main_v7_2) = Cert.Layers.dense (m ((c : Thread nD τ).loc main_arg0)) (m ((c : Thread nD τ).loc main_arg6)) (m ((c : Thread nD τ).loc main_arg7)) :=
  calc W2 m ρ c (Proc.devRef .tc main_v7_2)
    _ = (dat0 (V1 m ρ) c).arrAt 10 cfg0.N := W2_arr m ρ c 10
    _ = Cert.Layers.denseRow (W1 m ρ c (Proc.devRef .tc main_arg0)) (W1 m ρ c (Proc.devRef .tc main_arg6))
          (W1 m ρ c (Proc.devRef .tc main_v6)) := Cert.KernelIdeal.ProjStage.final10 (V1 m ρ) c
    _ = Cert.Layers.denseRow (m ((c : Thread nD τ).loc main_arg0)) (m ((c : Thread nD τ).loc main_arg6))
          (shapeCast S1x128 (m ((c : Thread nD τ).loc main_arg7)) shapeCasts_S128_S1x128) := by
      rw [entry_arg0, entry_arg6, entry_v6]
    _ = Cert.Layers.dense (m ((c : Thread nD τ).loc main_arg0)) (m ((c : Thread nD τ).loc main_arg6)) (m ((c : Thread nD τ).loc main_arg7)) :=
      congrArg (Cert.Layers.denseRow _ _) (row_eq _)

theorem root (c : Dev nD) :
    W2 m ρ c (Proc.devRef .tc main_v7_3) = Cert.Layers.proj (m ((c : Thread nD τ).loc main_arg0)) (m ((c : Thread nD τ).loc main_arg8)) :=
  calc W2 m ρ c (Proc.devRef .tc main_v7_3)
    _ = (dat0 (V1 m ρ) c).arrAt 11 cfg0.N := W2_arr m ρ c 11
    _ = Cert.Layers.proj (W1 m ρ c (Proc.devRef .tc main_arg0)) (W1 m ρ c (Proc.devRef .tc main_arg8)) :=
      Cert.KernelIdeal.ProjStage.final11 (V1 m ρ) c
    _ = Cert.Layers.proj (m ((c : Thread nD τ).loc main_arg0)) (m ((c : Thread nD τ).loc main_arg8)) := by rw [entry_arg0, entry_arg8]

/-! ## What the output kernel finds -/

theorem aggregate (c : Dev nD) :
    W5 m ρ c (Proc.devRef .tc main_v34)
      = Cert.Layers.edgeSum (Cert.Layers.dense (m ((c : Thread nD τ).loc main_arg0)) (m ((c : Thread nD τ).loc main_arg2)) (m ((c : Thread nD τ).loc main_arg3))) (Cert.Layers.dense (m ((c : Thread nD τ).loc main_arg0)) (m ((c : Thread nD τ).loc main_arg4)) (m ((c : Thread nD τ).loc main_arg5)))
          (Cert.Layers.dense (m ((c : Thread nD τ).loc main_arg0)) (m ((c : Thread nD τ).loc main_arg6)) (m ((c : Thread nD τ).loc main_arg7))) (Cert.Layers.sources (m ((c : Thread nD τ).loc main_arg1))) (Cert.Layers.targets (m ((c : Thread nD τ).loc main_arg1))) := by
  rw [mid_v34, keys, queries, values, through0 m ρ c main_v1 (by decide), through0 m ρ c main_v3 (by decide), entry_v1, entry_v3]

theorem root_in (c : Dev nD) : W5 m ρ c (Proc.devRef .tc main_v7_3) = Cert.Layers.proj (m ((c : Thread nD τ).loc main_arg0)) (m ((c : Thread nD τ).loc main_arg8)) := by
  rw [mid_v7_3, root]

theorem bias_conv (c : Dev nD) : W5 m ρ c (Proc.devRef .tc main_v35) = Cert.Layers.asRow (m ((c : Thread nD τ).loc main_arg9)) := by
  rw [mid_v35, through0 m ρ c main_arg9 (by decide), entry_arg9, row_eq]

theorem weight_lin (c : Dev nD) : W5 m ρ c (Proc.devRef .tc main_arg10) = (m ((c : Thread nD τ).loc main_arg10)) := by
  rw [mid_arg10, through0 m ρ c main_arg10 (by decide), entry_arg10]

theorem bias_lin (c : Dev nD) : W5 m ρ c (Proc.devRef .tc main_v36) = Cert.Layers.asRow (m ((c : Thread nD τ).loc main_arg11)) := by
  rw [mid_v36, through0 m ρ c main_arg11 (by decide), entry_arg11, row_eq]

/-! ## The result -/

/-- The result buffer at the last boundary holds the whole layer of the launch contents of the twelve arguments. -/
theorem result_eq (c : Dev nD) :
    W6 m ρ c (Proc.devRef .tc main_v37)
      = Cert.Layers.model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  calc W6 m ρ c (Proc.devRef .tc main_v37)
    _ = (dat1 (V5 m ρ) c).arrAt 5 cfg1.N := W6_arr m ρ c 5
    _ = Cert.Layers.head (W5 m ρ c (Proc.devRef .tc main_v34)) (W5 m ρ c (Proc.devRef .tc main_v7_3))
          (W5 m ρ c (Proc.devRef .tc main_v35)) (W5 m ρ c (Proc.devRef .tc main_arg10)) (W5 m ρ c (Proc.devRef .tc main_v36)) :=
      Cert.KernelIdeal.HeadStage.final5 (V5 m ρ) c
    _ = Cert.Layers.model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
      rw [aggregate, root_in, bias_conv, weight_lin, bias_lin]
      rfl

end Cert.KernelIdeal.Whole

end
-- ==== Proof.RefValue.lean ====
/-
  The reference program's result is the layer `Layers.model` of its arguments.

  The reference's run ends with its result buffer at the composition of its host operations; that composition is,
  term for term, the whole-array functions of Layers.lean put together: the three dense projections, the edge
  aggregation over the wrapped source and target indices, the root term, and the leaky-rectified head.
-/
import proofs.«129368_j33492154974253_1_alg».proof.Proof.Gen.ReferenceIdeal.Run
import proofs.«129368_j33492154974253_1_alg».proof.Proof.Layers

set_option maxRecDepth 16384

noncomputable section

namespace Cert.ReferenceIdeal.RefValue

open Cert.ReferenceIdeal Cert.ReferenceIdeal.Gen Idealize.ShloMosaic Idealize.ShloMosaic.TcCoe Idealize.SL.Sem

/-- The composed term of the reference's result is the layer of the launch contents of its twelve arguments. -/
theorem result_eq (m : (ℓ : Loc nD τ sig) → Buf (Elt Ideal) ℓ) (c : Dev nD) :
    Cert.ReferenceIdeal.Value.res_main_v56 (F := Ideal) m c
      = Cert.Layers.model (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.Value.res_main_v56 Cert.Layers.model Cert.Layers.head Cert.Layers.leaky Cert.Layers.combined
    Cert.Layers.edgeSum Cert.Layers.rowsAt Cert.Layers.wrapped Cert.Layers.dense Cert.Layers.denseRow Cert.Layers.asRow
    Cert.Layers.proj Cert.Layers.sources Cert.Layers.targets
  rfl

end Cert.ReferenceIdeal.RefValue

end
-- ==== Proof.lean ====
/-
  The gated graph layer computed by two row-blocked kernels with a host stretch between them equals its plain
  reference, on the extended reals.

  Both programs compute, for 50000 nodes with 128 features and 800000 edges,
      out = leaky(agg + x·Wskip + b_conv)·Wlin + blin,
      agg[i] = the sum over the edges (j → i) of max(key[i] + query[j], 0) · value[j],
      key = x·Wk + bk,  query = x·Wq + bq,  value = x·Wv + bv.
  The kernel program computes the four products x·W in blocks of 5000 rows (operands narrowed to another float format
  first, which changes nothing on the extended reals), runs the gathers, the rectified sum and the segment sum on the host with
  the same operations as the reference, and computes the head again in blocks of 5000 rows.  A row block of a matrix
  product is the product of the row block, entry by entry the same sum of the same products, so no law of arithmetic
  beyond that is used and the precondition is never opened: both results are `Layers.model` of the twelve arguments.

  Modules: Layers (the layer as whole-array functions), RefValue (the reference's result is `model`), Blocks (the
  kernels' bodies on a block of rows, over LibLeakyRows / LibTwoLayerRows / LibRowBlocks / LibPlainDot), ProjStage and
  HeadStage (each kernel's output arrays from its blocks), Between (the buffer contents between the segments),
  KernelRun (the whole run with its result kept), KernelValue (the kernel program's result is `model`).
  The ideal pass rewrote nothing, so the kernel's idealization is its own text and that claim is trivial.
-/
import proofs.«129368_j33492154974253_1_alg».proof.Defs
import proofs.«129368_j33492154974253_1_alg».proof.Proof.Gen.Kernel
import proofs.«129368_j33492154974253_1_alg».proof.Proof.Gen.Kernel.Frame
import proofs.«129368_j33492154974253_1_alg».proof.Proof.Gen.KernelIdeal
import proofs.«129368_j33492154974253_1_alg».proof.Proof.Gen.KernelIdeal.Frame
import proofs.«129368_j33492154974253_1_alg».proof.Proof.Gen.ReferenceIdeal
import proofs.«129368_j33492154974253_1_alg».proof.Proof.Gen.ReferenceIdeal.Run
import proofs.«129368_j33492154974253_1_alg».proof.Proof.Gen.Pre_finite_inputs
import proofs.«129368_j33492154974253_1_alg».proof.Proof.KernelRun
import proofs.«129368_j33492154974253_1_alg».proof.Proof.KernelValue
import proofs.«129368_j33492154974253_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the layer of the arguments in their result. -/
theorem algebraic : Cert.algebraic_KernelIdeal_ReferenceIdeal := by
  intro m ρ m' ρ' _ hagree
  refine ⟨fun c => Cert.Layers.model (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Whole.result_eq m ρ c), (h c).2⟩)
      (Cert.KernelIdeal.Whole.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.RefValue.result_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
